-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x4096 : Shape := ⟨3, ![8, 32, 4096]⟩
abbrev S11008x4096 : Shape := ⟨2, ![11008, 4096]⟩
abbrev S1 : Shape := ⟨1, ![1]⟩
abbrev S11008 : Shape := ⟨1, ![11008]⟩
abbrev S_ : Shape := ⟨0, ![]⟩

class Facts : Prop where
  bcast_S_S8x32x4096 : S_.BroadcastsInDim S8x32x4096 (![] : Fin 0 → Fin S8x32x4096.rank)
  reducesTo_S8x32x4096_S_d0_1_2 : S8x32x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8x32x4096 .f32) (main_arg1 : IVec S11008x4096 32) (main_arg2 : FVec F S1 .f32) (main_arg3 : FVec F S11008 .f32) : IVec S_ 1 :=
  let main_v0 : FVec F S8x32x4096 .f32 := Host.absf main_arg0
  let main_cst : FVec F S_ .f32 := constant S_ .f32 0x7F800000#32
  let main_v1 : FVec F S8x32x4096 .f32 := broadcastInDim S8x32x4096 ![] bcast_S_S8x32x4096 main_cst
  let main_v2 : IVec S8x32x4096 1 := cmpf .olt main_v0 main_v1
  let main_c : IVec S_ 1 := constantI S_ 1 1#1
  let main_v3 : IVec S_ 1 := (fun x v => Host.reduce IntOp.andi x v reducesTo_S8x32x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8x32x4096 : Shape := ⟨3, ![8, 32, 4096]⟩
abbrev S11008x4096 : Shape := ⟨2, ![11008, 4096]⟩
abbrev S1 : Shape := ⟨1, ![1]⟩
abbrev S11008 : Shape := ⟨1, ![11008]⟩
abbrev S256x4096 : Shape := ⟨2, ![256, 4096]⟩
abbrev S1x1 : Shape := ⟨2, ![1, 1]⟩
abbrev S1x11008 : Shape := ⟨2, ![1, 11008]⟩
abbrev S256x11008 : Shape := ⟨2, ![256, 11008]⟩
abbrev S1x256 : Shape := ⟨2, ![1, 256]⟩
abbrev S256x256 : Shape := ⟨2, ![256, 256]⟩
abbrev S8x32x11008 : Shape := ⟨3, ![8, 32, 11008]⟩

abbrev nBuf : Space → Nat
  | .hbm => 10
  | .vmem => 8
  | .smem => 0
  | _ => 0

abbrev bufTy : (tb : Table) → Fin (tcTables nBuf tb) → BufTy
  | .hbm, ⟨0, _⟩ => ⟨S8x32x4096, .f32⟩
  | .hbm, ⟨1, _⟩ => ⟨S11008x4096, .i32⟩
  | .hbm, ⟨2, _⟩ => ⟨S1, .f32⟩
  | .hbm, ⟨3, _⟩ => ⟨S11008, .f32⟩
  | .hbm, ⟨4, _⟩ => ⟨S256x4096, .f32⟩
  | .hbm, ⟨5, _⟩ => ⟨S256x4096, .bf16⟩
  | .hbm, ⟨6, _⟩ => ⟨S1x1, .f32⟩
  | .hbm, ⟨7, _⟩ => ⟨S1x11008, .f32⟩
  | .hbm, ⟨8, _⟩ => ⟨S256x11008, .f32⟩
  | .hbm, ⟨9, _⟩ => ⟨S8x32x11008, .f32⟩
  | .local _ .vmem, ⟨0, _⟩ => ⟨S256x4096, .bf16⟩
  | .local _ .vmem, ⟨1, _⟩ => ⟨S256x4096, .i32⟩
  | .local _ .vmem, ⟨2, _⟩ => ⟨S256x4096, .i32⟩
  | .local _ .vmem, ⟨3, _⟩ => ⟨S1x1, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | _, _ => ⟨S8x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x32x4096_S256x4096 : S8x32x4096.ShapeCasts S256x4096
  bitsLt_bf16_f32 : FTy.bits .bf16 < FTy.bits .f32
  shapeCasts_S1_S1x1 : S1.ShapeCasts S1x1
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x11008_S8x32x11008 : S256x11008.ShapeCasts S8x32x11008
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x11008.size a
  hwx0_4 : ∀ i : grid0.Coords, EltTy.bits .f32 = 32 ∨ (Rect.block (s := S256x11008) S256x256.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v1) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x32x4096 : Shape := ⟨3, ![8, 32, 4096]⟩
abbrev S11008x4096 : Shape := ⟨2, ![11008, 4096]⟩
abbrev S1 : Shape := ⟨1, ![1]⟩
abbrev S11008 : Shape := ⟨1, ![11008]⟩
abbrev S_ : Shape := ⟨0, ![]⟩
abbrev S8x32x11008 : Shape := ⟨3, ![8, 32, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S8x32x4096, .f32⟩
  | .hbm, ⟨1, _⟩ => ⟨S11008x4096, .i32⟩
  | .hbm, ⟨2, _⟩ => ⟨S1, .f32⟩
  | .hbm, ⟨3, _⟩ => ⟨S11008, .f32⟩
  | .hbm, ⟨4, _⟩ => ⟨S11008x4096, .f32⟩
  | .hbm, ⟨5, _⟩ => ⟨S_, .f32⟩
  | .hbm, ⟨6, _⟩ => ⟨S11008x4096, .f32⟩
  | .hbm, ⟨7, _⟩ => ⟨S11008x4096, .f32⟩
  | .hbm, ⟨8, _⟩ => ⟨S8x32x11008, .f32⟩
  | .hbm, ⟨9, _⟩ => ⟨S1x1x11008, .f32⟩
  | .hbm, ⟨10, _⟩ => ⟨S8x32x11008, .f32⟩
  | .hbm, ⟨11, _⟩ => ⟨S8x32x11008, .f32⟩
  | _, _ => ⟨S8x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S1_S_ : S1.ShapeCasts S_
  bcast_S_S11008x4096 : S_.BroadcastsInDim S11008x4096 (![] : Fin 0 → Fin S11008x4096.rank)
  bcast_S11008_S1x1x11008_2 : S11008.BroadcastsInDim S1x1x11008 (![2] : Fin 1 → Fin S1x1x11008.rank)
  bcast_S1x1x11008_S8x32x11008_0_1_2 : S1x1x11008.BroadcastsInDim S8x32x11008 (![0, 1, 2] : Fin 3 → Fin S8x32x11008.rank)
  dot_S8x32x4096_S11008x4096_S8x32x11008_2_1_01_0_n_n_wf : DotDims.WF S8x32x4096 S11008x4096 S8x32x11008 [2] [1] [0, 1] [0] [] []

variable [Facts₀]

def dot_S8x32x4096_S11008x4096_S8x32x11008_2_1_01_0_n_n : DotDims S8x32x4096 S11008x4096 S8x32x11008 where
  lhsContracting := [2]
  rhsContracting := [1]
  lhsNonContracting := [0, 1]
  rhsNonContracting := [0]
  lhsBatch := []
  rhsBatch := []
  wf := dot_S8x32x4096_S11008x4096_S8x32x11008_2_1_01_0_n_n_wf

class Facts : Prop extends Facts₀ where

variable [Facts]
-- ==== Proof.Finite.lean ====
/-
  What the precondition gives: every entry of x and the scale is a real number.

  The precondition is the conjunction of three tests, one per float input, each "every |entry| < +∞".  An
  extended real whose absolute value max(v, −v) lies strictly below +∞ is neither +∞ nor −∞, so it is (the
  coercion of) a real.  The test on the bias is not needed: adding the bias is the last step on both sides.
-/
import proofs.«160132_j41420664602841_2_alg».proof.Pre_finite_inputs
import Idealize.ShloMosaic.Lib.ReduceAll
import Idealize.ShloMosaic.Lib.ValueIdx
import Idealize.ShloMosaic.PureOps.Ideal

noncomputable section
namespace Cert.QLinear
open Idealize.ShloMosaic Idealize.ShloMosaic.ValueIdx Cert.Pre_finite_inputs

/-- The rank-0 shape has one index. -/
instance : Subsingleton S_.Idx := ⟨fun a b => funext fun d => d.elim0⟩

/-- An extended real with |v| < +∞ (the test's one-bit answer is 1) is a real number. -/
theorem real_of_abs_lt (x : EReal) (h : FloatOps.cmpf (F := Ideal) (φ := .f32) .olt (FloatOps.hostAbsf (F := Ideal) (φ := .f32) x) (FloatOps.ofBits (F := Ideal) .f32 0x7F800000#32) = 1#1) : ∃ r : ℝ, x = r := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- Under the precondition, every entry of x and of the scale is a real number: the answer bit is the "and" of
    the three all-tests; an all-test that answers 1 passed at every index. -/
theorem finite_of_pre [Cert.Pre_finite_inputs.Facts] (x : FVec Ideal S8x32x4096 .f32) (w : IVec S11008x4096 32) (s : FVec Ideal S1 .f32) (b : FVec Ideal S11008 .f32)
   (h : Cert.Pre_finite_inputs.fn (F := Ideal) x w s b = fun _ => 1#1) :
   (∀ i, ∃ r : ℝ, x i = r) ∧ (∀ i, ∃ r : ℝ, s i = r) := by
  have h0 := congrFun h ValueIdx.ix0
  dsimp only [Cert.Pre_finite_inputs.fn] at h0
  unfold andi at h0
  rw [IntOp.andi_eq_one, IntOp.andi_eq_one] at h0
  obtain ⟨⟨hx, hs⟩, -⟩ := h0
  exact ⟨fun i => real_of_abs_lt (x i) (Host.reduce_andi_all _ _ _ _ _ hx i),
    fun i => real_of_abs_lt (s i) (Host.reduce_andi_all _ _ _ _ _ hs i)⟩

end Cert.QLinear
end
-- ==== Proof.Spec.lean ====
/-
  The quantized linear layer as ONE function of the four argument arrays, and the one algebraic law that joins
  its two spellings.

  With x : [8, 32, 4096] (extended reals), W : [11008, 4096] (32-bit integer words, read signed), the scale
  s : [1] and the bias b : [11008], the result at (p, q, o) is

      (∑ k, x[p, q, k] · W[o, k]) · s[0] + b[o].

  This is the kernel's spelling: the scale multiplies the finished row-by-column sum.  The reference scales
  every weight first, ∑ k, x[p, q, k] · (W[o, k] · s[0]).  The two agree when the x's and the scale are real
  numbers (a factor moves across a finite sum of reals); at an infinite scale or entry they need not, which
  is where the finiteness of the inputs is used.
-/
import Idealize.ShloMosaic.PureOps.Ideal
import Idealize.ShloMosaic.Lib.ValueIdx

noncomputable section

namespace Cert.QLinear

open Idealize.ShloMosaic Idealize.ShloMosaic.ValueIdx

/-- The integer a weight word denotes, as an extended real. -/
abbrev wt (b : BitVec 32) : EReal := ((b.toInt : ℝ) : EReal)

/-- The layer's result at output coordinates (p, q, o). -/
def linAt (x : (⟨3, ![8, 32, 4096]⟩ : Shape).Idx → EReal) (w : (⟨2, ![11008, 4096]⟩ : Shape).Idx → BitVec 32)
    (s : (⟨1, ![1]⟩ : Shape).Idx → EReal) (b : (⟨1, ![11008]⟩ : Shape).Idx → EReal)
    (p : Fin 8) (q : Fin 32) (o : Fin 11008) : EReal :=
  (∑ k : Fin 4096, x (ix3 p q k) * wt (w (ix2 o k))) * s (ix1 (0 : Fin 1)) + b (ix1 o)

/-- The layer's result as a [8, 32, 11008] array. -/
def lin (x : (⟨3, ![8, 32, 4096]⟩ : Shape).Idx → EReal) (w : (⟨2, ![11008, 4096]⟩ : Shape).Idx → BitVec 32)
    (s : (⟨1, ![1]⟩ : Shape).Idx → EReal) (b : (⟨1, ![11008]⟩ : Shape).Idx → EReal) :
    (⟨3, ![8, 32, 11008]⟩ : Shape).Idx → EReal :=
  fun i => linAt x w s b (i 0) (i 1) (i 2)

/-- The coercion of the reals into the extended reals commutes with a finite sum. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A real factor moves across a finite sum of products of reals: (∑ aₖ·wₖ)·s = ∑ aₖ·(wₖ·s), for real aₖ and s.
    (On the extended reals this fails at infinities: with a = (1, 1), w = (1, −1) and s = +∞ the left side is 0·∞ = 0
    and the right side ∞ + (−∞).) -/
theorem scale_sum {n : ℕ} (a : Fin n → EReal) (w : Fin n → ℝ) (s : EReal)
    (ha : ∀ k, ∃ r : ℝ, a k = r) (hs : ∃ r : ℝ, s = r) :
    (∑ k, a k * (w k : EReal)) * s = ∑ k, a k * ((w k : EReal) * s) := by
  obtain ⟨s', rfl⟩ := hs
  choose a' ha' using ha
  have h1 : ∀ k, a k * (w k : EReal) = ((a' k * w k : ℝ) : EReal) := fun k => by rw [ha' k, EReal.coe_mul]
  have h2 : ∀ k, a k * ((w k : EReal) * (s' : EReal)) = ((a' k * (w k * s') : ℝ) : EReal) := fun k => by
    rw [ha' k, EReal.coe_mul, EReal.coe_mul]
  simp only [h1, h2]
  rw [← coe_sum, ← coe_sum, ← EReal.coe_mul, Finset.sum_mul]
  exact congrArg _ (Finset.sum_congr rfl fun k _ => by ring)

end Cert.QLinear

end
-- ==== Proof.Body.lean ====
/-
  One grid point's arithmetic, read at an output coordinate.

  The body multiplies the resident [256, 4096] block of x by the transpose of a [256, 4096] tile of the weight
  (both contracted along their second axis), scales the [256, 256] product by the scalar, and adds the bias row
  laid along every row.  At row r and column c of the tile this is

      (∑ k, x[r, k] · W[c, k]) · s + bias[c],

  the weight word read as a signed integer.  The product starts from a zero accumulator, which the sum drops.
-/
import proofs.«160132_j41420664602841_2_alg».proof.Proof.Gen.KernelIdeal.Skeleton
import proofs.«160132_j41420664602841_2_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.QLinear Idealize.ShloMosaic Idealize.ShloMosaic.ValueIdx

/-! ## The product's operand indices: output (r, c) and contraction position k read x at (r, k), W at (c, k) -/

theorem lhs_row (j : S256x256.Idx) (q : dot_S256x4096_S256x4096_S256x256_1_1_0_0_n_n.contr.Idx) :
    (dot_S256x4096_S256x4096_S256x256_1_1_0_0_n_n.lhsIdx j q 0).val = (j 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl

theorem lhs_contr (j : S256x256.Idx) (q : dot_S256x4096_S256x4096_S256x256_1_1_0_0_n_n.contr.Idx) :
    (dot_S256x4096_S256x4096_S256x256_1_1_0_0_n_n.lhsIdx j q 1).val = (q ⟨0, by decide⟩).val :=
  dot_S256x4096_S256x4096_S256x256_1_1_0_0_n_n.lhsIdx_val_of_single rfl j q

theorem rhs_row (j : S256x256.Idx) (q : dot_S256x4096_S256x4096_S256x256_1_1_0_0_n_n.contr.Idx) :
    (dot_S256x4096_S256x4096_S256x256_1_1_0_0_n_n.rhsIdx j q 0).val = (j 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl

theorem rhs_contr (j : S256x256.Idx) (q : dot_S256x4096_S256x4096_S256x256_1_1_0_0_n_n.contr.Idx) :
    (dot_S256x4096_S256x4096_S256x256_1_1_0_0_n_n.rhsIdx j q 1).val = (q ⟨0, by decide⟩).val :=
  dot_S256x4096_S256x4096_S256x256_1_1_0_0_n_n.rhsIdx_val_of_single rfl j q

/-- The tile product into a zero accumulator, at (r, c): the sum over k of left[r, k] · right[c, k]. -/
theorem product_at (l r : FVec Ideal S256x4096 .bf16) (p c : Fin 256) :
    matmul dot_S256x4096_S256x4096_S256x256_1_1_0_0_n_n none l r (constant (F := Ideal) S256x256 .f32 0x00000000#32) (ix2 p c)
      = ∑ k : Fin 4096, l (ix2 p k) * r (ix2 c k) := by
  simp only [matmul]
  rw [Ideal.matmul_constant_zero_apply,
    ← Equiv.sum_comp (ValueIdx.contrEquiv1 dot_S256x4096_S256x4096_S256x256_1_1_0_0_n_n 4096 rfl rfl).symm]
  refine Finset.sum_congr rfl fun k _ => ?_
  have hk := ValueIdx.contrEquiv1_symm_val dot_S256x4096_S256x4096_S256x256_1_1_0_0_n_n 4096 rfl rfl k
  have el : dot_S256x4096_S256x4096_S256x256_1_1_0_0_n_n.lhsIdx (ix2 p c)
      ((ValueIdx.contrEquiv1 dot_S256x4096_S256x4096_S256x256_1_1_0_0_n_n 4096 rfl rfl).symm k) = ix2 p k :=
    funext fun a => Fin.ext (by
      match a with
      | ⟨0, _⟩ => exact lhs_row _ _
      | ⟨1, _⟩ => exact (lhs_contr _ _).trans hk)
  have er : dot_S256x4096_S256x4096_S256x256_1_1_0_0_n_n.rhsIdx (ix2 p c)
      ((ValueIdx.contrEquiv1 dot_S256x4096_S256x4096_S256x256_1_1_0_0_n_n 4096 rfl rfl).symm k) = ix2 c k :=
    funext fun a => Fin.ext (by
      match a with
      | ⟨0, _⟩ => exact rhs_row _ _
      | ⟨1, _⟩ => exact (rhs_contr _ _).trans hk)
  rw [el, er]

/-- The one-row bias block laid along every row of the tile, at (r, c): its entry c. -/
theorem bias_at (v : FVec Ideal S1x256 .f32) (p c : Fin 256) :
    broadcastTo S256x256 v broadcasts_S1x256_S256x256 (ix2 p c) = v (ix2 (0 : Fin 1) c) :=
  broadcastTo_apply v broadcasts_S1x256_S256x256 (ix2 p c) (ix2 (0 : Fin 1) c) (fun a => match a with
    | ⟨0, _⟩ => by show 0 = if (1 : Nat) = 1 then 0 else p.val; rw [if_pos rfl]
    | ⟨1, _⟩ => by show c.val = if (256 : Nat) = 1 then 0 else c.val; rw [if_neg (by decide)])

/-- The scalar drawn from the [1, 1] block is its one entry. -/
theorem scalar_at (v : Vec Ideal S1x1 .f32) : extractAt ![0, 0] v inpos_S1x1_p0_0 = v (ix2 (0 : Fin 1) (0 : Fin 1)) :=
  congrArg v (funext fun a => Fin.ext (by match a with | ⟨0, _⟩ => rfl | ⟨1, _⟩ => rfl))

/-- THE BODY'S STORED VALUE at row r, column c of the tile. -/
theorem payload_at (x0 : Vec Ideal S256x4096 .bf16) (x2 : Vec Ideal S1x1 .f32) (x1 : Vec Ideal S256x4096 .i32)
    (x3 : Vec Ideal S1x256 .f32) (p c : Fin 256) :
    k0_pay1 (F := Ideal) x0 x2 x1 x3 (ix2 p c)
      = (∑ k : Fin 4096, x0 (ix2 p k) * wt (x1 (ix2 c k))) * x2 (ix2 (0 : Fin 1) (0 : Fin 1)) + x3 (ix2 (0 : Fin 1) c) := by
  unfold k0_pay1
  rw [addf_apply, mulf_apply, broadcast_apply, shapeCast_self, shapeCast_self, product_at, bias_at, scalar_at]
  rfl

end Cert.KernelIdeal.Body

end
-- ==== Proof.Blocks.lean ====
/-
  From one grid point's tile to the whole [256, 11008] array.

  The grid has 43 points; point t works on columns 256·t … 256·t + 255 of the output.  It reads all of x (as a
  [256, 4096] array), rows 256·t … of the weight, the one scale entry, and columns 256·t … of the bias row, and
  writes back the [256, 256] tile of the output at block (0, t).  So what point t writes back is the block at
  (0, t) of ONE function of the four arrays the region finds,

      tile[r, o] = (∑ k, X[r, k] · W[o, k]) · S[0, 0] + B[0, o],

  and since the 43 column blocks tile the array, the array ends at that function.
-/
import proofs.«160132_j41420664602841_2_alg».proof.Proof.Gen.KernelIdeal.Frame
import proofs.«160132_j41420664602841_2_alg».proof.Proof.Body

noncomputable section

namespace Cert.KernelIdeal.Blocks

open Cert.KernelIdeal Cert.KernelIdeal.Gen Cert.KernelIdeal.Body Cert.QLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The result on the two-dimensional arrays, at row r and output column o. -/
def tileAt (X : S256x4096.Idx → EReal) (W : S11008x4096.Idx → BitVec 32) (S : S1x1.Idx → EReal) (B : S1x11008.Idx → EReal)
    (r : Fin 256) (o : Fin 11008) : EReal :=
  (∑ k : Fin 4096, X (ix2 r k) * wt (W (ix2 o k))) * S (ix2 (0 : Fin 1) (0 : Fin 1)) + B (ix2 (0 : Fin 1) o)

/-- The same as a [256, 11008] array. -/
def tile (X : S256x4096.Idx → EReal) (W : S11008x4096.Idx → BitVec 32) (S : S1x1.Idx → EReal) (B : S1x11008.Idx → EReal) :
    S256x11008.Idx → EReal :=
  fun i => tileAt X W S B (i 0) (i 1)

theorem zero_offsets : (![0, 0] : Fin 2 → Nat) = fun _ => 0 := funext fun a => by fin_cases a <;> rfl

/-- The block indices of the five windows at point t, decided over the 43 points: x and the scale stay at block
    (0, 0); the weight's row block and the bias's column block are the output's column block; the output's row
    block is 0. -/
theorem block_indices : ∀ t : Fin cfg0.N, win0_0.index t (0 : Fin 2) = 0 ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = win0_4.index t (1 : Fin 2)
    ∧ win0_4.index t (0 : Fin 2) = 0 ∧ win0_4.index t (1 : Fin 2) ≤ 42 :=
  (by decide +kernel : ∀ t : Fin grid0.N, _)

/-- Every column block 0 … 42 is some point's. -/
theorem block_onto : ∀ q : Fin 43, ∃ t : Fin cfg0.N, win0_4.index t = ![0, q.val] :=
  (by decide +kernel : ∀ q : Fin 43, ∃ t : Fin grid0.N, win0_4.index t = ![0, q.val])

/-! ## Each input block, read where the output tile's entry (r, c) sits in the array -/

/-- x's block at point t is all of x: its row r is the array's row under the output entry. -/
theorem x_read (c : Dev nD) (t : Fin cfg0.N) (p q : Fin 256) (k : Fin 4096) :
    iblk m c 0 t (ix2 p k) = V m c main_v1 (ix2 (((cfg0.win 4).blk t).view.emb (ix2 p q) 0) k) := by
  obtain ⟨e0, e1, e2, e3, e4, e5, e6, e7, e8, e9⟩ := block_indices t
  show V m c main_v1 (((cfg0.win 0).blk t).view.emb (ix2 p k)) = V m c main_v1 (ix2 (((cfg0.win 4).blk t).view.emb (ix2 p q) 0) k)
  refine congrArg (V m c main_v1) (funext fun a => Fin.ext ?_)
  match a with
  | ⟨0, _⟩ => show win0_0.index t (0 : Fin 2) * 256 + 1 * p.val = win0_4.index t (0 : Fin 2) * 256 + 1 * p.val; omega
  | ⟨1, _⟩ => show win0_0.index t (1 : Fin 2) * 4096 + 1 * k.val = k.val; omega

/-- The weight's block at point t holds the rows under the output's columns: its row c is the array's row at
    the output entry's column. -/
theorem w_read (c : Dev nD) (t : Fin cfg0.N) (p q : Fin 256) (k : Fin 4096) :
    iblk m c 1 t (ix2 q k) = V m c main_arg1 (ix2 (((cfg0.win 4).blk t).view.emb (ix2 p q) 1) k) := by
  obtain ⟨e0, e1, e2, e3, e4, e5, e6, e7, e8, e9⟩ := block_indices t
  show V m c main_arg1 (((cfg0.win 1).blk t).view.emb (ix2 q k)) = V m c main_arg1 (ix2 (((cfg0.win 4).blk t).view.emb (ix2 p q) 1) k)
  refine congrArg (V m c main_arg1) (funext fun a => Fin.ext ?_)
  match a with
  | ⟨0, _⟩ => show win0_1.index t (0 : Fin 2) * 256 + 1 * q.val = win0_4.index t (1 : Fin 2) * 256 + 1 * q.val; omega
  | ⟨1, _⟩ => show win0_1.index t (1 : Fin 2) * 4096 + 1 * k.val = k.val; omega

/-- The scale's block is the one scale entry. -/
theorem s_read (c : Dev nD) (t : Fin cfg0.N) :
    iblk m c 2 t (ix2 (0 : Fin 1) (0 : Fin 1)) = V m c main_v2 (ix2 (0 : Fin 1) (0 : Fin 1)) := by
  obtain ⟨e0, e1, e2, e3, e4, e5, e6, e7, e8, e9⟩ := block_indices t
  show V m c main_v2 (((cfg0.win 2).blk t).view.emb (ix2 (0 : Fin 1) (0 : Fin 1))) = V m c main_v2 (ix2 (0 : Fin 1) (0 : Fin 1))
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- The bias row's block at point t holds the entries under the output's columns. -/
theorem b_read (c : Dev nD) (t : Fin cfg0.N) (p q : Fin 256) :
    iblk m c 3 t (ix2 (0 : Fin 1) q) = V m c main_v3 (ix2 (0 : Fin 1) (((cfg0.win 4).blk t).view.emb (ix2 p q) 1)) := by
  obtain ⟨e0, e1, e2, e3, e4, e5, e6, e7, e8, e9⟩ := block_indices t
  show V m c main_v3 (((cfg0.win 3).blk t).view.emb (ix2 (0 : Fin 1) q)) = V m c main_v3 (ix2 (0 : Fin 1) (((cfg0.win 4).blk t).view.emb (ix2 p q) 1))
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 256 + 1 * q.val = win0_4.index t (1 : Fin 2) * 256 + 1 * q.val; omega

/-- WHAT POINT t WRITES BACK is the block at (0, t) of `tile` of the arrays as the region finds them. -/
theorem flushed_eq (c : Dev nD) (t : Fin cfg0.N) :
    (dats m 0 c).flushed 4 t
      = ((cfg0.win 4).blk t).view.read (Elt Ideal) (tile (V m c main_v1) (V m c main_arg1) (V m c main_v2) (V m c main_v3)) := by
  show (cfg0.win 4).cut (grid0.coords t) ((dats m 0 c).after 4 t) = _
  rw [after0_4]
  unfold out0_4
  rw [View.canon_unit_zero zero_offsets]
  simp only [View.ld_unit_zero (S := S256x4096) zero_offsets, View.ld_unit_zero (S := S1x1) zero_offsets,
    View.ld_unit_zero (S := S1x256) zero_offsets]
  funext j
  obtain ⟨p, q, rfl⟩ : ∃ (p : Fin 256) (q : Fin 256), j = ix2 p q := ⟨j 0, j 1, eq_ix2 j⟩
  show k0_pay1 (F := Ideal) (iblk m c 0 t) (iblk m c 2 t) (iblk m c 1 t) (iblk m c 3 t) (ix2 p q)
      = tileAt (V m c main_v1) (V m c main_arg1) (V m c main_v2) (V m c main_v3)
          (((cfg0.win 4).blk t).view.emb (ix2 p q) 0) (((cfg0.win 4).blk t).view.emb (ix2 p q) 1)
  refine (payload_at (iblk m c 0 t) (iblk m c 2 t) (iblk m c 1 t) (iblk m c 3 t) p q).trans ?_
  unfold tileAt
  simp only [x_read m c t p q, w_read m c t p q, s_read m c t, b_read m c t p q]

/-- An index of the array is in point t's block iff each coordinate is in the block's range on its axis. -/
theorem mem_blk (t : Fin cfg0.N) (i : S256x11008.Idx) :
    i ∈ ((cfg0.win 4).blk t).view.set ↔ ∀ a : Fin 2, win0_4.index t a * S256x256.size a ≤ (i a).val
      ∧ (i a).val < win0_4.index t a * S256x256.size a + S256x256.size a := by
  show i ∈ ((View.whole main_v4).slice (win0_4.rect t)).set ↔ _
  rw [View.set_slice_whole, Rect.mem_set_unit]
  exact Iff.rfl

/-- Every index of the array is in the block of the point whose column block is (column / 256). -/
theorem covered (i : S256x11008.Idx) :
    ∃ t : Fin cfg0.N, (cfg0.win 4).flush t = true ∧ i ∈ ((cfg0.win 4).blk t).view.set := by
  have hi0 : (i 0).val < 256 := (i 0).isLt
  have hi1 : (i 1).val < 11008 := (i 1).isLt
  obtain ⟨t, ht⟩ := block_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- THE ARRAY after the region: `tile` of the arrays as the region finds them. -/
theorem array_eq (c : Dev nD) :
    (dats m 0 c).arrAt 4 cfg0.N = tile (V m c main_v1) (V m c main_arg1) (V m c main_v2) (V m c main_v3) :=
  (dats m 0 c).arrAt_eq_of_cover 4 _ (fun t _ => flushed_eq m c t) covered

end Cert.KernelIdeal.Blocks

end
-- ==== Proof.KernelRun.lean ====
/-
  The kernel's program, end to end: its result array is the layer's function of the four arguments.

  Around the one region the program reshapes: x [8, 32, 4096] is laid out as [256, 4096] (row 32·p + q) and
  narrowed to bf16 (no change of value on the extended reals), the scale [1] becomes [1, 1], the bias [11008]
  becomes a row [1, 11008]; after the region the [256, 11008] array is laid out as [8, 32, 11008].  A reshape
  keeps the row-major position, so entry (p, q, o) of the result is entry (32·p + q, o) of the region's array,
  whose x-row 32·p + q is x[p, q, ·].
-/
import proofs.«160132_j41420664602841_2_alg».proof.Proof.Blocks
import Idealize.ShloMosaic.Lib.StableHlo.Run

noncomputable section

namespace Cert.KernelIdeal.Run

open Cert.KernelIdeal Cert.KernelIdeal.Gen Cert.KernelIdeal.Blocks Cert.QLinear
open Idealize.ShloMosaic Idealize.ShloMosaic.TcCoe Idealize.ShloMosaic.ValueIdx Idealize.SL.Sem Idealize.ShloMosaic.StableHlo
open Idealize.ShloMosaic.Pipeline (Dat)

/-- The reshapes around the region, index by index: the [256, 11008] function of the re-laid arguments, laid out
    as [8, 32, 11008], is the layer's function of the arguments. -/
theorem relaid (x : S8x32x4096.Idx → EReal) (w : S11008x4096.Idx → BitVec 32) (s : S1.Idx → EReal) (b : S11008.Idx → EReal) :
    shapeCast S8x32x11008
        (tile (truncf (F := Ideal) .bf16 (shapeCast S256x4096 x shapeCasts_S8x32x4096_S256x4096) bitsLt_bf16_f32) w
          (shapeCast S1x1 s shapeCasts_S1_S1x1) (shapeCast S1x11008 b shapeCasts_S11008_S1x11008))
        shapeCasts_S256x11008_S8x32x11008
      = lin x w s b := by
  funext i
  obtain ⟨p, q, o, rfl⟩ : ∃ (p : Fin 8) (q : Fin 32) (o : Fin 11008), i = ix3 p q o := ⟨i 0, i 1, i 2, eq_ix3 i⟩
  have hp : p.val < 8 := p.isLt
  have hq : q.val < 32 := q.isLt
  refine (shapeCast_apply _ shapeCasts_S256x11008_S8x32x11008 (ix3 p q o)
    (ix2 (⟨p.val * 32 + q.val, by omega⟩ : Fin 256) o) (by rw [Shape.rowMajor_val_two, Shape.rowMajor_val_three]; rfl)).trans ?_
  show tileAt _ w _ _ (⟨p.val * 32 + q.val, by omega⟩ : Fin 256) o = linAt x w s b p q o
  unfold tileAt linAt
  have hX : ∀ k : Fin 4096,
      truncf (F := Ideal) .bf16 (shapeCast S256x4096 x shapeCasts_S8x32x4096_S256x4096) bitsLt_bf16_f32
        (ix2 (⟨p.val * 32 + q.val, by omega⟩ : Fin 256) k) = x (ix3 p q k) := fun k =>
    shapeCast_apply x shapeCasts_S8x32x4096_S256x4096 (ix2 (⟨p.val * 32 + q.val, by omega⟩ : Fin 256) k) (ix3 p q k)
      (by rw [Shape.rowMajor_val_three, Shape.rowMajor_val_two]; rfl)
  have hS : shapeCast S1x1 s shapeCasts_S1_S1x1 (ix2 (0 : Fin 1) (0 : Fin 1)) = s (ix1 (0 : Fin 1)) :=
    shapeCast_apply s shapeCasts_S1_S1x1 (ix2 (0 : Fin 1) (0 : Fin 1)) (ix1 (0 : Fin 1))
      (by rw [Shape.rowMajor_val_one, Shape.rowMajor_val_two]; rfl)
  have hB : shapeCast S1x11008 b shapeCasts_S11008_S1x11008 (ix2 (0 : Fin 1) o) = b (ix1 o) :=
    shapeCast_apply b shapeCasts_S11008_S1x11008 (ix2 (0 : Fin 1) o) (ix1 o)
      (by rw [Shape.rowMajor_val_one, Shape.rowMajor_val_two]; show o.val = 0 * 11008 + o.val; omega)
  simp only [hX, hS, hB]

variable (m : (ℓ : Loc nD τ sig) → Buf (Elt Ideal) ℓ) (ρ : Dev nD → PrngReg)

/-! ## The arrays the region finds, from the arguments -/

theorem found_x (c : Dev nD) : (V m c main_v1 : S256x4096.Idx → EReal)
    = truncf (F := Ideal) .bf16 (shapeCast S256x4096 (m ((c : Thread nD τ).loc main_arg0)) shapeCasts_S8x32x4096_S256x4096) bitsLt_bf16_f32 := by
  show StableHlo.after hostOps0 (fun b => m (c, b)) (Proc.devRef .tc main_v1) = _
  after_results
  rfl

theorem found_scale (c : Dev nD) : (V m c main_v2 : S1x1.Idx → EReal)
    = shapeCast S1x1 (m ((c : Thread nD τ).loc main_arg2)) shapeCasts_S1_S1x1 := by
  show StableHlo.after hostOps0 (fun b => m (c, b)) (Proc.devRef .tc main_v2) = _
  after_results
  rfl

theorem found_bias (c : Dev nD) : (V m c main_v3 : S1x11008.Idx → EReal)
    = shapeCast S1x11008 (m ((c : Thread nD τ).loc main_arg3)) shapeCasts_S11008_S1x11008 := by
  show StableHlo.after hostOps0 (fun b => m (c, b)) (Proc.devRef .tc main_v3) = _
  after_results
  rfl

/-- What the program's last line leaves in the result buffer: the layer's function of the arguments. -/
theorem result_eq (c : Dev nD) :
    Pipeline.afterTail₀ cfgs (dats m) 0 (V0 m) [hostOps1] c main_v5
      = lin (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v5) = _
  after_results
  have e : Pipeline.withArrays spec0 c (V0 m c) (fun w => (dats m 0 c).arrAt w cfg0.N) (Proc.devRef .tc main_v4)
      = tile (V m c main_v1) (V m c main_arg1) (V m c main_v2) (V m c main_v3) :=
    (Pipeline.withArrays_arr spec0 launch0.win.arr_inj c _ _ 4).trans (array_eq m c)
  show shapeCast S8x32x11008
      (Pipeline.withArrays spec0 c (V0 m c) (fun w => (dats m 0 c).arrAt w cfg0.N) (Proc.devRef .tc main_v4))
      shapeCasts_S256x11008_S8x32x11008 = _
  rw [e, found_x, found_scale, found_bias, V_main_arg1]
  exact relaid _ _ _ _

/-- THE KERNEL'S RUN: every weakly fair execution terminates with the result array at the layer's function of the
    arguments, and the arguments as launched. -/
theorem run : θ_run defs (onTc (τ := τ) (main (F := Ideal))) ⟨m, fun _ => 0, ρ⟩ fun r => ∀ c : Dev nD,
      r.2.mem ((c.tc : Thread nD τ).loc main_v5)
        = lin (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefValue.lean ====
/-
  The reference, read at an index, is the layer's function.

  The reference converts the weight to reals, multiplies every entry by the scale, contracts x with the scaled
  weight along the feature axis, and adds the bias along the last axis:

      ref[p, q, o] = ∑ k, x[p, q, k] · (W[o, k] · s[0]) + b[o].

  Moving the real factor s[0] out of the sum (`scale_sum`: x's entries and the scale are real numbers) gives
  (∑ k, x[p, q, k] · W[o, k]) · s[0] + b[o], the layer's function as the kernel spells it.
-/
import proofs.«160132_j41420664602841_2_alg».proof.Proof.Gen.ReferenceIdeal.Read
import proofs.«160132_j41420664602841_2_alg».proof.Proof.Spec

noncomputable section

namespace Cert.ReferenceIdeal.RefValue

open Cert.ReferenceIdeal Cert.ReferenceIdeal.Gen Cert.ReferenceIdeal.Read Cert.QLinear
open Idealize.ShloMosaic Idealize.ShloMosaic.ValueIdx

/-- The scale broadcast over the weight's shape is the one scale entry at every index. -/
theorem scale_at (x2 : (⟨S1, .f32⟩ : BufTy).Contents (Elt Ideal)) (j : S11008x4096.Idx) :
    val_main_v2 (F := Ideal) x2 j = x2 (ix1 (0 : Fin 1)) := by
  rw [val_main_v2_apply]
  unfold val_main_v1
  exact shapeCast_apply x2 shapeCasts_S1_S_ (idx_main_v2 j) (ix1 (0 : Fin 1)) (by
    rw [Shape.rowMajor_val_one]
    have h := (Shape.rowMajor S_ (idx_main_v2 j)).isLt
    have h1 : S_.numel = 1 := by decide
    show 0 = _
    omega)

/-- THE REFERENCE'S RESULT is the layer's function of the four arguments, when x and the scale hold real numbers. -/
theorem ref_eq (x0 : (⟨S8x32x4096, .f32⟩ : BufTy).Contents (Elt Ideal)) (x1 : (⟨S11008x4096, .i32⟩ : BufTy).Contents (Elt Ideal))
    (x2 : (⟨S1, .f32⟩ : BufTy).Contents (Elt Ideal)) (x3 : (⟨S11008, .f32⟩ : BufTy).Contents (Elt Ideal))
    (hx : ∀ i, ∃ r : ℝ, x0 i = r) (hs : ∀ i, ∃ r : ℝ, x2 i = r) :
    val_main_v7 (F := Ideal) x0 x1 x2 x3 = lin x0 x1 x2 x3 := by
  funext i
  have el : ∀ k : Fin 4096, lidx_main_v4 i k = ix3 (i 0) (i 1) k := fun k => funext fun a => Fin.ext (by
    match a with | ⟨0, _⟩ => rfl | ⟨1, _⟩ => rfl | ⟨2, _⟩ => rfl)
  have er : ∀ k : Fin 4096, ridx_main_v4 i k = ix2 (i 2) k := fun k => funext fun a => Fin.ext (by
    match a with | ⟨0, _⟩ => rfl | ⟨1, _⟩ => rfl)
  have eb : idx_main_v5 (idx_main_v6 i) = ix1 (i 2) := funext fun a => Fin.ext (by match a with | ⟨0, _⟩ => rfl)
  rw [val_main_v7_apply, val_main_v4_apply, val_main_v6_apply, val_main_v5_apply, eb]
  show (∑ k : Fin 4096, x0 (lidx_main_v4 i k) * val_main_v3 (F := Ideal) x1 x2 (ridx_main_v4 i k)) + x3 (ix1 (i 2))
      = linAt x0 x1 x2 x3 (i 0) (i 1) (i 2)
  unfold linAt
  refine congrArg (· + x3 (ix1 (i 2))) ?_
  rw [scale_sum (fun k => x0 (ix3 (i 0) (i 1) k)) (fun k => ((x1 (ix2 (i 2) k)).toInt : ℝ)) (x2 (ix1 (0 : Fin 1)))
    (fun k => hx _) (hs _)]
  refine Finset.sum_congr rfl fun k _ => ?_
  rw [el, er]
  show x0 (ix3 (i 0) (i 1) k) * (wt (x1 (ix2 (i 2) k)) * val_main_v2 (F := Ideal) x2 (ix2 (i 2) k)) = _
  rw [scale_at]

end Cert.ReferenceIdeal.RefValue

end
-- ==== Proof.lean ====
/-
  A quantized linear layer, y = (x · Wᵀ) · s + b with an integer weight W, a per-tensor scale s and a bias b,
  computed two ways.

  The kernel contracts x with a tile of W (the integer entries read exactly), scales the finished [256, 256]
  product by s and adds the bias; 43 grid points cover the 11008 output columns.  The reference scales every
  weight first and contracts afterwards.  Read on the extended reals both are

      y[p, q, o] = (∑ k, x[p, q, k] · W[o, k]) · s[0] + b[o]

  once the factor s[0] is moved across the sum, which is allowed because every x entry and the scale are real
  numbers (the precondition).  The narrowing of x to bf16 changes no value on the extended reals, and no operation
  of the kernel is rewritten for that reading: its idealization is its own text.
-/
import proofs.«160132_j41420664602841_2_alg».proof.Defs
import proofs.«160132_j41420664602841_2_alg».proof.Proof.Gen.Kernel
import proofs.«160132_j41420664602841_2_alg».proof.Proof.Gen.Kernel.Skeleton
import proofs.«160132_j41420664602841_2_alg».proof.Proof.Gen.Kernel.Launch
import proofs.«160132_j41420664602841_2_alg».proof.Proof.Gen.Kernel.Points
import proofs.«160132_j41420664602841_2_alg».proof.Proof.Gen.Kernel.Frame
import proofs.«160132_j41420664602841_2_alg».proof.Proof.Gen.KernelIdeal
import proofs.«160132_j41420664602841_2_alg».proof.Proof.Gen.KernelIdeal.Skeleton
import proofs.«160132_j41420664602841_2_alg».proof.Proof.Gen.KernelIdeal.Launch
import proofs.«160132_j41420664602841_2_alg».proof.Proof.Gen.KernelIdeal.Points
import proofs.«160132_j41420664602841_2_alg».proof.Proof.Gen.KernelIdeal.Frame
import proofs.«160132_j41420664602841_2_alg».proof.Proof.Gen.ReferenceIdeal
import proofs.«160132_j41420664602841_2_alg».proof.Proof.Gen.ReferenceIdeal.Run
import proofs.«160132_j41420664602841_2_alg».proof.Proof.Gen.ReferenceIdeal.Read
import proofs.«160132_j41420664602841_2_alg».proof.Proof.Gen.Pre_finite_inputs
import proofs.«160132_j41420664602841_2_alg».proof.Proof.Finite
import proofs.«160132_j41420664602841_2_alg».proof.Proof.KernelRun
import proofs.«160132_j41420664602841_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments as launched: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten for the reading on the extended reals. -/
theorem preserves : Cert.preserves_Kernel_KernelIdeal := trivial

/-- Both programs end with the layer's function of the (shared) arguments in their result arrays: the kernel by
    its run, the reference by its run and the law that moves the real scale across the sum, the entries of x and
    the scale being real numbers under the precondition. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.QLinear.finite_of_pre _ _ _ _ (hpre c)
  rw [Cert.ReferenceIdeal.Read.val_main_v7_eq, (hagree c).1, (hagree c).2.1, (hagree c).2.2.1, (hagree c).2.2.2]
  exact Cert.ReferenceIdeal.RefValue.ref_eq _ _ _ _ hx hs

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
